-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : IVec S2x800000 32) (main_arg2 : FVec F S128x64 .f32) (main_arg3 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S800000x64 : Shape := ⟨2, ![800000, 64]⟩

abbrev nBuf : Space → Nat
  | .hbm => 66
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S1x64, .f32⟩
  | .hbm, ⟨20, _⟩ => ⟨S50000x64, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .bf16⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S50000x64, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .bf16⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .bf16⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .bf16⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x1, .f32⟩
  | .local _ .vmem, ⟨5, _⟩ => ⟨S5000x1, .f32⟩
  | .local _ .vmem, ⟨6, _⟩ => ⟨S5000x64, .bf16⟩
  | .local _ .vmem, ⟨7, _⟩ => ⟨S5000x64, .bf16⟩
  | .local _ .vmem, ⟨8, _⟩ => ⟨S5000x64, .f32⟩
  | .local _ .vmem, ⟨9, _⟩ => ⟨S5000x64, .f32⟩
  | .local _ .vmem, ⟨10, _⟩ => ⟨S5000x64, .bf16⟩
  | .local _ .vmem, ⟨11, _⟩ => ⟨S5000x64, .bf16⟩
  | .local _ .vmem, ⟨12, _⟩ => ⟨S5000x1, .f32⟩
  | .local _ .vmem, ⟨13, _⟩ => ⟨S5000x1, .f32⟩
  | .local _ .vmem, ⟨14, _⟩ => ⟨S5000x64, .bf16⟩
  | .local _ .vmem, ⟨15, _⟩ => ⟨S5000x64, .bf16⟩
  | .local _ .vmem, ⟨16, _⟩ => ⟨S5000x64, .f32⟩
  | .local _ .vmem, ⟨17, _⟩ => ⟨S5000x64, .f32⟩
  | .local _ .vmem, ⟨18, _⟩ => ⟨S5000x64, .bf16⟩
  | .local _ .vmem, ⟨19, _⟩ => ⟨S5000x64, .bf16⟩
  | .local _ .vmem, ⟨20, _⟩ => ⟨S5000x1, .f32⟩
  | .local _ .vmem, ⟨21, _⟩ => ⟨S5000x1, .f32⟩
  | .local _ .vmem, ⟨22, _⟩ => ⟨S5000x64, .bf16⟩
  | .local _ .vmem, ⟨23, _⟩ => ⟨S5000x64, .bf16⟩
  | .local _ .vmem, ⟨24, _⟩ => ⟨S5000x64, .f32⟩
  | .local _ .vmem, ⟨25, _⟩ => ⟨S5000x64, .f32⟩
  | .local _ .vmem, ⟨26, _⟩ => ⟨S5000x64, .bf16⟩
  | .local _ .vmem, ⟨27, _⟩ => ⟨S5000x64, .bf16⟩
  | .local _ .vmem, ⟨28, _⟩ => ⟨S5000x1, .f32⟩
  | .local _ .vmem, ⟨29, _⟩ => ⟨S5000x1, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  shapeCasts_S5000x64_S5000x64 : S5000x64.ShapeCasts S5000x64
  scatter_S50000_S800000x1_S800000_n_0_0_1_wf : ScatterDims.WF S50000 S800000x1 S800000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S50000x1.size a
  hwx0_3 : ∀ i : grid0.Coords, EltTy.bits .f32 = 32 ∨ (Rect.block (s := S50000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .bf16 = 32 ∨ (Rect.block (s := S50000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .bf16 = 32 ∨ (Rect.block (s := S50000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .bf16 = 32 ∨ (Rect.block (s := S50000x64) S5000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .bf16 = 32 ∨ (Rect.block (s := S50000x64) S5000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .bf16 = 32 ∨ (Rect.block (s := S50000x64) S5000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_c_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.RunNamed.lean ====
/-
  The whole program's run with its result named.

  The program is four calls among stretches of host operations; the contents of every buffer at each boundary are a fold
  from the launch memory (`Gen.W1` … `Gen.W8`). Every weakly fair execution terminates without a fault, the arguments
  end as launched, and the result buffer ends at what the last boundary's contents `Gen.W8` hold there: the last thread
  state holds every buffer at `W8`, so reading it against the final memory gives the result as well as the arguments.
-/
import proofs.«159737_j22368189678004_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents and
    the arguments as launched. -/
theorem run_named : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.Named

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibGcnLayer.lean ====
/-
  One layer of a graph convolution as functions of whole arrays over the extended reals, and the three laws that
  let a tiled computation of it meet the plain one.

  With `n` the column of degree normalisers, `embed` is the scaled linear embedding `n ⊙ (x·w + b)`, `rescale` is
  `(n·n) ⊙ (a + h)` — a layer's output already scaled for the next layer — and `combine` is `n ⊙ (a + h)`, the last
  layer's output. Each is written entry by entry. The laws say that each is the corresponding composition of whole-array
  operations: a matrix product plus a broadcast bias, times a broadcast column; two successive multiplications by the
  broadcast column (multiplication on the extended reals is associative, infinities included, so no finiteness is needed);
  one multiplication by it.
-/
import Idealize.ShloMosaic.Lib.Pipeline.Value
import Idealize.ShloMosaic.Lib.ValueIdx
import Idealize.ShloMosaic.Lib.ValueLayout
import Idealize.ShloMosaic.PureOps.Ideal.Laws
import proofs.«159737_j22368189678004_2_alg».proof.Proof.LibColumns
import proofs.«159737_j22368189678004_2_alg».proof.Proof.LibPlainDot

noncomputable section

open scoped BigOperators

namespace Cert.Gcn

open Idealize.ShloMosaic Idealize.ShloMosaic.ValueIdx

/-- An `a × b` matrix of extended reals. -/
abbrev Mat (a b : ℕ) : Type := (⟨2, ![a, b]⟩ : Shape).Idx → EReal

variable {N K M : ℕ}

/-- `n ⊙ (x·w + b)`: entry (p, q) is `n p · (∑ₖ x (p,k) · w (k,q) + b q)`. -/
def embed (x : Mat N K) (w : Mat K M) (b : Mat 1 M) (n : Mat N 1) : Mat N M :=
  fun j => n (ix2 (n0 := N) (j 0) (0 : Fin 1))
    * ((∑ k : Fin K, x (ix2 (n0 := N) (j 0) k) * w (ix2 (n1 := M) k (j 1))) + b (ix2 (0 : Fin 1) (n1 := M) (j 1)))

/-- `(n·n) ⊙ (a + h)`: entry (p, q) is `(n p · n p) · (a (p,q) + h (p,q))`. -/
def rescale (a h : Mat N M) (n : Mat N 1) : Mat N M :=
  fun j => (n (ix2 (n0 := N) (j 0) (0 : Fin 1)) * n (ix2 (n0 := N) (j 0) (0 : Fin 1))) * (a j + h j)

/-- `n ⊙ (a + h)`: entry (p, q) is `n p · (a (p,q) + h (p,q))`. -/
def combine (a h : Mat N M) (n : Mat N 1) : Mat N M :=
  fun j => n (ix2 (n0 := N) (j 0) (0 : Fin 1)) * (a j + h j)

theorem embed_apply (x : Mat N K) (w : Mat K M) (b : Mat 1 M) (n : Mat N 1) (p : Fin N) (q : Fin M) :
    embed x w b n (ix2 p q) = n (ix2 p (0 : Fin 1)) * ((∑ k : Fin K, x (ix2 p k) * w (ix2 k q)) + b (ix2 (0 : Fin 1) q)) := rfl

theorem rescale_apply (a h : Mat N M) (n : Mat N 1) (p : Fin N) (q : Fin M) :
    rescale a h n (ix2 p q) = (n (ix2 p (0 : Fin 1)) * n (ix2 p (0 : Fin 1))) * (a (ix2 p q) + h (ix2 p q)) := rfl

theorem combine_apply (a h : Mat N M) (n : Mat N 1) (p : Fin N) (q : Fin M) :
    combine a h n (ix2 p q) = n (ix2 p (0 : Fin 1)) * (a (ix2 p q) + h (ix2 p q)) := rfl

/-- A column spread over `M` columns by `broadcast_in_dim` along both axes reads, at (p, q), the column's entry `p`. -/
theorem spreadCol_apply {α : Type} (hb : (⟨2, ![N, 1]⟩ : Shape).BroadcastsInDim ⟨2, ![N, M]⟩ ![0, 1])
    (n : (⟨2, ![N, 1]⟩ : Shape).Idx → α) (p : Fin N) (q : Fin M) :
    broadcastInDim ⟨2, ![N, M]⟩ ![0, 1] hb n (ix2 p q) = n (ix2 p (0 : Fin 1)) := by
  refine broadcastInDim_apply _ hb n (ix2 p q) (ix2 p (0 : Fin 1)) fun ax => ?_
  match ax with
  | ⟨0, _⟩ =>
    show p.val = if N = 1 then 0 else p.val
    split
    · have := p.isLt; omega
    · rfl
  | ⟨1, _⟩ =>
    show 0 = if (1 : ℕ) = 1 then 0 else q.val
    rw [if_pos rfl]

/-- A row spread over `N` rows by `broadcast_in_dim` along both axes reads, at (p, q), the row's entry `q`. -/
theorem spreadRow_apply {α : Type} (hb : (⟨2, ![1, M]⟩ : Shape).BroadcastsInDim ⟨2, ![N, M]⟩ ![0, 1])
    (b : (⟨2, ![1, M]⟩ : Shape).Idx → α) (p : Fin N) (q : Fin M) :
    broadcastInDim ⟨2, ![N, M]⟩ ![0, 1] hb b (ix2 p q) = b (ix2 (0 : Fin 1) q) := by
  refine broadcastInDim_apply _ hb b (ix2 p q) (ix2 (0 : Fin 1) q) fun ax => ?_
  match ax with
  | ⟨0, _⟩ =>
    show 0 = if (1 : ℕ) = 1 then 0 else p.val
    rw [if_pos rfl]
  | ⟨1, _⟩ =>
    show q.val = if M = 1 then 0 else q.val
    split
    · have := q.isLt; omega
    · rfl

/-- A vector of `M` entries made a `1 × M` row, by a recast or by `broadcast_in_dim` along the second axis: one row. -/
theorem row_recast_eq_spread {α : Type} (h : (⟨1, ![M]⟩ : Shape).ShapeCasts ⟨2, ![1, M]⟩)
    (hb : (⟨1, ![M]⟩ : Shape).BroadcastsInDim ⟨2, ![1, M]⟩ ![1]) (b : (⟨1, ![M]⟩ : Shape).Idx → α) :
    shapeCast ⟨2, ![1, M]⟩ b h = broadcastInDim ⟨2, ![1, M]⟩ ![1] hb b := by
  funext j
  obtain ⟨z, q, rfl⟩ : ∃ (z : Fin 1) (q : Fin M), j = ix2 z q := ⟨j 0, j 1, eq_ix2 j⟩
  rw [shapeCast_a_1a_apply b h z q]
  refine (broadcastInDim_apply _ hb b (ix2 z q) (ix1 q) fun ax => ?_).symm
  match ax with
  | ⟨0, _⟩ =>
    show q.val = if M = 1 then 0 else q.val
    split
    · have := q.isLt; omega
    · rfl

/-- The scaled embedding is the host's: the column spread, times the matrix product plus the bias row spread. -/
theorem embed_eq_host (D : DotDims (⟨2, ![N, K]⟩ : Shape) (⟨2, ![K, M]⟩ : Shape) (⟨2, ![N, M]⟩ : Shape))
    (hr : D.contr.rank = 1) (hs : D.contr.size ⟨0, by omega⟩ = K)
    (l0 : ∀ (i : (⟨2, ![N, M]⟩ : Shape).Idx) (q : D.contr.Idx), (D.lhsIdx i q 0).val = (i 0).val)
    (l1 : ∀ (i : (⟨2, ![N, M]⟩ : Shape).Idx) (q : D.contr.Idx), (D.lhsIdx i q 1).val = (q ⟨0, by omega⟩).val)
    (r0 : ∀ (i : (⟨2, ![N, M]⟩ : Shape).Idx) (q : D.contr.Idx), (D.rhsIdx i q 0).val = (q ⟨0, by omega⟩).val)
    (r1 : ∀ (i : (⟨2, ![N, M]⟩ : Shape).Idx) (q : D.contr.Idx), (D.rhsIdx i q 1).val = (i 1).val)
    (hbn : (⟨2, ![N, 1]⟩ : Shape).BroadcastsInDim ⟨2, ![N, M]⟩ ![0, 1])
    (hbb : (⟨2, ![1, M]⟩ : Shape).BroadcastsInDim ⟨2, ![N, M]⟩ ![0, 1])
    (x : FVec Ideal ⟨2, ![N, K]⟩ .f32) (w : FVec Ideal ⟨2, ![K, M]⟩ .f32) (b : FVec Ideal ⟨2, ![1, M]⟩ .f32)
    (n : FVec Ideal ⟨2, ![N, 1]⟩ .f32) :
    embed x w b n
      = mulf (F := Ideal) (φ := .f32) (broadcastInDim ⟨2, ![N, M]⟩ ![0, 1] hbn n)
          (addf (F := Ideal) (φ := .f32) (Host.dotGeneral (F := Ideal) D none x w) (broadcastInDim ⟨2, ![N, M]⟩ ![0, 1] hbb b)) := by
  funext j
  obtain ⟨p, q, rfl⟩ : ∃ (p : Fin N) (q : Fin M), j = ix2 p q := ⟨j 0, j 1, eq_ix2 j⟩
  show _ = FloatOps.mulf (F := Ideal) (broadcastInDim ⟨2, ![N, M]⟩ ![0, 1] hbn n (ix2 p q))
      (FloatOps.addf (F := Ideal) (Host.dotGeneral (F := Ideal) D none x w (ix2 p q)) (broadcastInDim ⟨2, ![N, M]⟩ ![0, 1] hbb b (ix2 p q)))
  rw [spreadCol_apply hbn n p q, spreadRow_apply hbb b p q, embed_apply, Ideal.mulf_def, Ideal.addf_def]
  refine congrArg (fun s => n (ix2 p (0 : Fin 1)) * (s + b (ix2 (0 : Fin 1) q))) ?_
  simp only [Host.dotGeneral]
  exact (Cert.PlainDot.dotGeneral_apply D hr hs l0 l1 r0 r1 none _ x w p q).symm

/-- A layer scaled for the next one is two successive multiplications by the spread column. -/
theorem rescale_eq_host (hbn : (⟨2, ![N, 1]⟩ : Shape).BroadcastsInDim ⟨2, ![N, M]⟩ ![0, 1])
    (a h : FVec Ideal ⟨2, ![N, M]⟩ .f32) (n : FVec Ideal ⟨2, ![N, 1]⟩ .f32) :
    rescale a h n
      = mulf (F := Ideal) (φ := .f32) (broadcastInDim ⟨2, ![N, M]⟩ ![0, 1] hbn n)
          (mulf (F := Ideal) (φ := .f32) (broadcastInDim ⟨2, ![N, M]⟩ ![0, 1] hbn n) (addf (F := Ideal) (φ := .f32) a h)) := by
  funext j
  obtain ⟨p, q, rfl⟩ : ∃ (p : Fin N) (q : Fin M), j = ix2 p q := ⟨j 0, j 1, eq_ix2 j⟩
  show _ = FloatOps.mulf (F := Ideal) (broadcastInDim ⟨2, ![N, M]⟩ ![0, 1] hbn n (ix2 p q))
      (FloatOps.mulf (F := Ideal) (broadcastInDim ⟨2, ![N, M]⟩ ![0, 1] hbn n (ix2 p q)) (FloatOps.addf (F := Ideal) (a (ix2 p q)) (h (ix2 p q))))
  rw [spreadCol_apply hbn n p q, rescale_apply, Ideal.mulf_def, Ideal.mulf_def, Ideal.addf_def]
  exact mul_assoc _ _ _

/-- The last layer is one multiplication by the spread column. -/
theorem combine_eq_host (hbn : (⟨2, ![N, 1]⟩ : Shape).BroadcastsInDim ⟨2, ![N, M]⟩ ![0, 1])
    (a h : FVec Ideal ⟨2, ![N, M]⟩ .f32) (n : FVec Ideal ⟨2, ![N, 1]⟩ .f32) :
    combine a h n
      = mulf (F := Ideal) (φ := .f32) (broadcastInDim ⟨2, ![N, M]⟩ ![0, 1] hbn n) (addf (F := Ideal) (φ := .f32) a h) := by
  funext j
  obtain ⟨p, q, rfl⟩ : ∃ (p : Fin N) (q : Fin M), j = ix2 p q := ⟨j 0, j 1, eq_ix2 j⟩
  show _ = FloatOps.mulf (F := Ideal) (broadcastInDim ⟨2, ![N, M]⟩ ![0, 1] hbn n (ix2 p q))
      (FloatOps.addf (F := Ideal) (a (ix2 p q)) (h (ix2 p q)))
  rw [spreadCol_apply hbn n p q, combine_apply, Ideal.mulf_def, Ideal.addf_def]

end Cert.Gcn

end
-- ==== Proof.Region0.lean ====
/-
  The first call: what its output array holds once every grid point has written its block back.

  The call walks ten blocks of 5000 rows. At a point it loads 5000 rows of the features `x`, the whole weight matrix `w`,
  the whole bias row `b` and the same 5000 entries of the column of normalisers `n`, and stores `n ⊙ (x·w + b)` of those
  blocks: the matrix product is taken into a zero accumulator, so over the extended reals entry (p, q) is
  `∑ₖ x (p,k) · w (k,q)`, and the whole stored entry depends only on row p of `x` and `n`. So the block stored is the
  scaled embedding of the blocks, which is the block of the scaled embedding of the whole arrays; the ten blocks tile the
  output, and the array ends as `Gcn.embed x w b n`.
-/
import proofs.«159737_j22368189678004_2_alg».proof.Proof.Gen.KernelIdeal.Frame
import proofs.«159737_j22368189678004_2_alg».proof.Proof.LibGcnLayer

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

/-- An extended real, named as one: the arrays' entries are extended reals whatever float format their buffer has. -/
abbrev er (x : EReal) : EReal := x

theorem off_zero : (![0, 0] : Fin 2 → Nat) = fun _ => 0 := funext fun a => by fin_cases a <;> rfl

/-! The product's dimension numbers: at output entry `i` and contraction position `q` the left operand is read at
    (i 0, q) and the right at (q, i 1). -/

theorem dot_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The stored block is the scaled embedding of the four loaded blocks. -/
theorem stored_apply (x : Vec Ideal S5000x128 .f32) (w : Vec Ideal S128x64 .f32) (b : Vec Ideal S1x64 .f32)
    (n : Vec Ideal S5000x1 .f32) (y : S5000x64.Idx) :
    k0_pay1 (F := Ideal) x w b n y = Cert.Gcn.embed (N := 5000) (K := 128) (M := 64) x w b n y := by
  obtain ⟨p, q, rfl⟩ : ∃ (p : Fin 5000) (q : Fin 64), y = ix2 p q := ⟨y 0, y 1, eq_ix2 y⟩
  unfold k0_pay1
  rw [shapeCast_self, shapeCast_self]
  show FloatOps.truncf (F := Ideal) .bf16 bitsLt_bf16_f32
      (FloatOps.mulf (F := Ideal) (broadcastTo S5000x64 n broadcasts_S5000x1_S5000x64 (ix2 p q))
        (FloatOps.addf (F := Ideal)
          (FloatOps.matmul (F := Ideal) dot_S5000x128_S128x64_S5000x64_1_0_0_1_n_n none (truncf .bf16 x bitsLt_bf16_f32)
            (truncf .bf16 w bitsLt_bf16_f32) (constant S5000x64 .f32 0x00000000#32) (ix2 p q))
          (broadcastTo S5000x64 b broadcasts_S1x64_S5000x64 (ix2 p q)))) = _
  rw [Cert.LibColumns.broadcastTo_a1_ab_apply n broadcasts_S5000x1_S5000x64 p q,
    broadcastTo_1b_ab_apply b broadcasts_S1x64_S5000x64 p q,
    Cert.PlainDot.matmul_zero_apply dot_S5000x128_S128x64_S5000x64_1_0_0_1_n_n rfl rfl dot_l0 dot_l1 dot_r0 dot_r1 none
      (truncf .bf16 x bitsLt_bf16_f32) (truncf .bf16 w bitsLt_bf16_f32) p q,
    Cert.Gcn.embed_apply]
  rfl

/-- The row-blocked windows move with the grid point along the rows; the weights and the bias stay at block (0, 0). -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

variable (V : (c : Dev nD) → (b : Ref sig .tc) → Buf (Elt Ideal) ((c : Thread nD τ).loc b))

/-- What point `t` writes back is block `t` of `embed x w b n` of the arrays as the call finds them. -/
theorem flushed_eq (c : Dev nD) (t : Fin cfg0.N) :
    (dat0 (F := Ideal) V c).flushed 4 t
      = ((cfg0.win 4).blk t).view.read (Elt Ideal)
          (Cert.Gcn.embed (N := 50000) (K := 128) (M := 64) (V c main_arg0) (V c main_arg2) (V c main_v12) (V c main_v11)) := by
  show (cfg0.win 4).cut (grid0.coords t) ((dat0 (F := Ideal) V c).after 4 t) = _
  rw [after0_4]
  unfold out0_4
  rw [View.canon_unit_zero off_zero]
  simp only [View.ld_unit_zero (S := S5000x128) off_zero, View.ld_unit_zero (S := S128x64) off_zero,
    View.ld_unit_zero (S := S1x64) off_zero, View.ld_unit_zero (S := S5000x1) off_zero]
  obtain ⟨⟨e00, e01⟩, ⟨e10, e11⟩, ⟨e20, e21⟩, ⟨e30, e31⟩, ⟨e40, e41⟩⟩ := index_facts t
  funext j
  refine (stored_apply _ _ _ _ j).trans ?_
  show er (V c main_v11 (((cfg0.win 3).blk t).view.emb (ix2 (n0 := 5000) (j 0) (0 : Fin 1))))
        * ((∑ k : Fin 128, er (V c main_arg0 (((cfg0.win 0).blk t).view.emb (ix2 (n0 := 5000) (j 0) k)))
              * er (V c main_arg2 (((cfg0.win 1).blk t).view.emb (ix2 (n1 := 64) k (j 1)))))
          + er (V c main_v12 (((cfg0.win 2).blk t).view.emb (ix2 (0 : Fin 1) (n1 := 64) (j 1)))))
      = er (V c main_v11 (ix2 (n0 := 50000) ((((cfg0.win 4).blk t).view.emb j) 0) (0 : Fin 1)))
        * ((∑ k : Fin 128, er (V c main_arg0 (ix2 (n0 := 50000) ((((cfg0.win 4).blk t).view.emb j) 0) k))
              * er (V c main_arg2 (ix2 (n1 := 64) k ((((cfg0.win 4).blk t).view.emb j) 1))))
          + er (V c main_v12 (ix2 (0 : Fin 1) (n1 := 64) ((((cfg0.win 4).blk t).view.emb j) 1))))
  have h3 : ((cfg0.win 3).blk t).view.emb (ix2 (n0 := 5000) (j 0) (0 : Fin 1))
      = ix2 (n0 := 50000) ((((cfg0.win 4).blk t).view.emb j) 0) (0 : Fin 1) := by
    funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 1 + 1 * 0 = 0; omega
  have h0 : ∀ k : Fin 128, ((cfg0.win 0).blk t).view.emb (ix2 (n0 := 5000) (j 0) k)
      = ix2 (n0 := 50000) ((((cfg0.win 4).blk t).view.emb j) 0) k := by
    intro k; funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 (n1 := 64) k (j 1))
      = ix2 (n1 := 64) k ((((cfg0.win 4).blk t).view.emb j) 1) := by
    intro k; funext a; apply Fin.ext
    match a with
    | ⟨0, _⟩ => show win0_1.index t (0 : Fin 2) * 128 + 1 * k.val = k.val; omega
    | ⟨1, _⟩ => show win0_1.index t (1 : Fin 2) * 64 + 1 * (j 1).val = win0_4.index t (1 : Fin 2) * 64 + 1 * (j 1).val; omega
  have h2 : ((cfg0.win 2).blk t).view.emb (ix2 (0 : Fin 1) (n1 := 64) (j 1))
      = ix2 (0 : Fin 1) (n1 := 64) ((((cfg0.win 4).blk t).view.emb j) 1) := by
    funext a; apply Fin.ext
    match a with
    | ⟨0, _⟩ => show win0_2.index t (0 : Fin 2) * 1 + 1 * 0 = 0; omega
    | ⟨1, _⟩ => show win0_2.index t (1 : Fin 2) * 64 + 1 * (j 1).val = win0_4.index t (1 : Fin 2) * 64 + 1 * (j 1).val; omega
  simp only [h0, h1, h2, h3]

/-- An index of the array is in point `t`'s block iff each coordinate is in the block's range on its axis. -/
theorem mem_blk (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v13).slice (win0_4.rect t)).set ↔ _
  rw [View.set_slice_whole, Rect.mem_set_unit]
  exact Iff.rfl

/-- Row r lies in the block of point r / 5000: the ten blocks tile the array. -/
theorem cover (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, ⟨e40, e41⟩⟩ := index_facts t
  refine ⟨t, flush0_4 t, ?_⟩
  rw [mem_blk]
  intro a
  have ht : t.val = (i 0).val / 5000 := rfl
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The output array after the call: `embed x w b n` of the arrays as the call finds them. -/
theorem final (c : Dev nD) :
    (dat0 (F := Ideal) V c).arrAt 4 cfg0.N
      = Cert.Gcn.embed (N := 50000) (K := 128) (M := 64) (V c main_arg0) (V c main_arg2) (V c main_v12) (V c main_v11) :=
  (dat0 (F := Ideal) V c).arrAt_eq_of_cover 4 _ (fun t _ => flushed_eq V c t) cover

end Cert.KernelIdeal.Region0

end
-- ==== Proof.Region1.lean ====
/-
  The second call: what its output array holds once every grid point has written its block back.

  The call walks ten blocks of 5000 rows. At a point it loads the block of the aggregated neighbours `a`, the same block
  of the previous layer's features `h` and the same 5000 entries of the column of normalisers `n`, and stores
  `(n·n) ⊙ (a + h)` — the layer's output already scaled for the next layer: entry (p, q) of the block depends only on row p
  of the three blocks. So each block written back is the block of ONE whole-array function, `Gcn.rescale a h n`, the ten
  blocks tile the array, and the array ends as that function.
-/
import proofs.«159737_j22368189678004_2_alg».proof.Proof.Gen.KernelIdeal.Frame
import proofs.«159737_j22368189678004_2_alg».proof.Proof.LibGcnLayer

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

/-- An extended real, named as one: the arrays' entries are extended reals whatever float format their buffer has. -/
abbrev er (x : EReal) : EReal := x

theorem off_zero : (![0, 0] : Fin 2 → Nat) = fun _ => 0 := funext fun a => by fin_cases a <;> rfl

/-- The stored value at row p, column q of a block: `(n p · n p) · (a (p,q) + h (p,q))` of the three loaded blocks. -/
theorem stored_apply (h : Vec Ideal S5000x64 .bf16) (n : Vec Ideal S5000x1 .f32) (a : Vec Ideal S5000x64 .f32)
    (y : S5000x64.Idx) :
    k1_pay1 (F := Ideal) h n a y
      = ((n (ix2 (n0 := 5000) (y 0) (0 : Fin 1)) : EReal) * (n (ix2 (n0 := 5000) (y 0) (0 : Fin 1)) : EReal)) * ((a y : EReal) + (h y : EReal)) := by
  obtain ⟨p, q, rfl⟩ : ∃ (p : Fin 5000) (q : Fin 64), y = ix2 p q := ⟨y 0, y 1, eq_ix2 y⟩
  unfold k1_pay1
  rw [shapeCast_self, shapeCast_self, shapeCast_self]
  show FloatOps.truncf (F := Ideal) .bf16 bitsLt_bf16_f32
      (FloatOps.mulf (F := Ideal) (broadcastTo S5000x64 (mulf (F := Ideal) n n) broadcasts_S5000x1_S5000x64 (ix2 p q))
        (FloatOps.addf (F := Ideal) (a (ix2 p q)) (FloatOps.extf (F := Ideal) .f32 bitsLt_bf16_f32 (h (ix2 p q))))) = _
  rw [Cert.LibColumns.broadcastTo_a1_ab_apply (mulf (F := Ideal) n n) broadcasts_S5000x1_S5000x64 p q]
  rfl

/-- Every window of this call moves with the grid point along the rows and stays at column block 0. -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

variable (V : (c : Dev nD) → (b : Ref sig .tc) → Buf (Elt Ideal) ((c : Thread nD τ).loc b))

/-- What point `t` writes back is block `t` of `rescale a h n` of the arrays as the call finds them. -/
theorem flushed_eq (c : Dev nD) (t : Fin cfg1.N) :
    (dat1 (F := Ideal) V c).flushed 3 t
      = ((cfg1.win 3).blk t).view.read (Elt Ideal) (Cert.Gcn.rescale (N := 50000) (M := 64) (V c main_v24) (V c main_v13) (V c main_v11)) := by
  show (cfg1.win 3).cut (grid1.coords t) ((dat1 (F := Ideal) V c).after 3 t) = _
  rw [after1_3]
  unfold out1_3
  rw [View.canon_unit_zero off_zero]
  simp only [View.ld_unit_zero (S := S5000x64) off_zero, View.ld_unit_zero (S := S5000x1) off_zero]
  obtain ⟨⟨e00, e01⟩, ⟨e10, e11⟩, ⟨e20, e21⟩, ⟨e30, e31⟩⟩ := index_facts t
  funext j
  refine (stored_apply _ _ _ j).trans ?_
  show (er (V c main_v11 (((cfg1.win 2).blk t).view.emb (ix2 (n0 := 5000) (j 0) (0 : Fin 1))))
          * er (V c main_v11 (((cfg1.win 2).blk t).view.emb (ix2 (n0 := 5000) (j 0) (0 : Fin 1)))))
        * (er (V c main_v24 (((cfg1.win 0).blk t).view.emb j)) + er (V c main_v13 (((cfg1.win 1).blk t).view.emb j)))
      = (er (V c main_v11 (ix2 (n0 := 50000) ((((cfg1.win 3).blk t).view.emb j) 0) (0 : Fin 1)))
          * er (V c main_v11 (ix2 (n0 := 50000) ((((cfg1.win 3).blk t).view.emb j) 0) (0 : Fin 1))))
        * (er (V c main_v24 (((cfg1.win 3).blk t).view.emb j)) + er (V c main_v13 (((cfg1.win 3).blk t).view.emb j)))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb (ix2 (n0 := 5000) (j 0) (0 : Fin 1))
      = ix2 (n0 := 50000) ((((cfg1.win 3).blk t).view.emb j) 0) (0 : Fin 1) := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 1 + 1 * 0 = 0; omega
  rw [h0, h1, h2]

/-- An index of the array is in point `t`'s block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v25).slice (win1_3.rect t)).set ↔ _
  rw [View.set_slice_whole, Rect.mem_set_unit]
  exact Iff.rfl

/-- Row r lies in the block of point r / 5000: the ten blocks tile the array. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, ⟨e30, e31⟩⟩ := index_facts t
  refine ⟨t, flush1_3 t, ?_⟩
  rw [mem_blk]
  intro a
  have ht : t.val = (i 0).val / 5000 := rfl
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the call: `rescale a h n` of the arrays as the call finds them. -/
theorem final (c : Dev nD) :
    (dat1 (F := Ideal) V c).arrAt 3 cfg1.N = Cert.Gcn.rescale (N := 50000) (M := 64) (V c main_v24) (V c main_v13) (V c main_v11) :=
  (dat1 (F := Ideal) V c).arrAt_eq_of_cover 3 _ (fun t _ => flushed_eq V c t) cover

end Cert.KernelIdeal.Region1

end
-- ==== Proof.Region2.lean ====
/-
  The third call: what its output array holds once every grid point has written its block back.

  The call walks ten blocks of 5000 rows. At a point it loads the block of the aggregated neighbours `a`, the same block
  of the previous layer's features `h` and the same 5000 entries of the column of normalisers `n`, and stores
  `(n·n) ⊙ (a + h)` — the layer's output already scaled for the next layer: entry (p, q) of the block depends only on row p
  of the three blocks. So each block written back is the block of ONE whole-array function, `Gcn.rescale a h n`, the ten
  blocks tile the array, and the array ends as that function.
-/
import proofs.«159737_j22368189678004_2_alg».proof.Proof.Gen.KernelIdeal.Frame
import proofs.«159737_j22368189678004_2_alg».proof.Proof.LibGcnLayer

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

/-- An extended real, named as one: the arrays' entries are extended reals whatever float format their buffer has. -/
abbrev er (x : EReal) : EReal := x

theorem off_zero : (![0, 0] : Fin 2 → Nat) = fun _ => 0 := funext fun a => by fin_cases a <;> rfl

/-- The stored value at row p, column q of a block: `(n p · n p) · (a (p,q) + h (p,q))` of the three loaded blocks. -/
theorem stored_apply (h : Vec Ideal S5000x64 .bf16) (n : Vec Ideal S5000x1 .f32) (a : Vec Ideal S5000x64 .f32)
    (y : S5000x64.Idx) :
    k2_pay1 (F := Ideal) h n a y
      = ((n (ix2 (n0 := 5000) (y 0) (0 : Fin 1)) : EReal) * (n (ix2 (n0 := 5000) (y 0) (0 : Fin 1)) : EReal)) * ((a y : EReal) + (h y : EReal)) := by
  obtain ⟨p, q, rfl⟩ : ∃ (p : Fin 5000) (q : Fin 64), y = ix2 p q := ⟨y 0, y 1, eq_ix2 y⟩
  unfold k2_pay1
  rw [shapeCast_self, shapeCast_self, shapeCast_self]
  show FloatOps.truncf (F := Ideal) .bf16 bitsLt_bf16_f32
      (FloatOps.mulf (F := Ideal) (broadcastTo S5000x64 (mulf (F := Ideal) n n) broadcasts_S5000x1_S5000x64 (ix2 p q))
        (FloatOps.addf (F := Ideal) (a (ix2 p q)) (FloatOps.extf (F := Ideal) .f32 bitsLt_bf16_f32 (h (ix2 p q))))) = _
  rw [Cert.LibColumns.broadcastTo_a1_ab_apply (mulf (F := Ideal) n n) broadcasts_S5000x1_S5000x64 p q]
  rfl

/-- Every window of this call moves with the grid point along the rows and stays at column block 0. -/
theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0) :=
  (by decide +kernel : ∀ t : Fin grid2.N, _)

variable (V : (c : Dev nD) → (b : Ref sig .tc) → Buf (Elt Ideal) ((c : Thread nD τ).loc b))

/-- What point `t` writes back is block `t` of `rescale a h n` of the arrays as the call finds them. -/
theorem flushed_eq (c : Dev nD) (t : Fin cfg2.N) :
    (dat2 (F := Ideal) V c).flushed 3 t
      = ((cfg2.win 3).blk t).view.read (Elt Ideal) (Cert.Gcn.rescale (N := 50000) (M := 64) (V c main_v36) (V c main_v25) (V c main_v11)) := by
  show (cfg2.win 3).cut (grid2.coords t) ((dat2 (F := Ideal) V c).after 3 t) = _
  rw [after2_3]
  unfold out2_3
  rw [View.canon_unit_zero off_zero]
  simp only [View.ld_unit_zero (S := S5000x64) off_zero, View.ld_unit_zero (S := S5000x1) off_zero]
  obtain ⟨⟨e00, e01⟩, ⟨e10, e11⟩, ⟨e20, e21⟩, ⟨e30, e31⟩⟩ := index_facts t
  funext j
  refine (stored_apply _ _ _ j).trans ?_
  show (er (V c main_v11 (((cfg2.win 2).blk t).view.emb (ix2 (n0 := 5000) (j 0) (0 : Fin 1))))
          * er (V c main_v11 (((cfg2.win 2).blk t).view.emb (ix2 (n0 := 5000) (j 0) (0 : Fin 1)))))
        * (er (V c main_v36 (((cfg2.win 0).blk t).view.emb j)) + er (V c main_v25 (((cfg2.win 1).blk t).view.emb j)))
      = (er (V c main_v11 (ix2 (n0 := 50000) ((((cfg2.win 3).blk t).view.emb j) 0) (0 : Fin 1)))
          * er (V c main_v11 (ix2 (n0 := 50000) ((((cfg2.win 3).blk t).view.emb j) 0) (0 : Fin 1))))
        * (er (V c main_v36 (((cfg2.win 3).blk t).view.emb j)) + er (V c main_v25 (((cfg2.win 3).blk t).view.emb j)))
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 64 + 1 * (j 1).val = win2_3.index t (1 : Fin 2) * 64 + 1 * (j 1).val; omega
  have h2 : ((cfg2.win 2).blk t).view.emb (ix2 (n0 := 5000) (j 0) (0 : Fin 1))
      = ix2 (n0 := 50000) ((((cfg2.win 3).blk t).view.emb j) 0) (0 : Fin 1) := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 1 + 1 * 0 = 0; omega
  rw [h0, h1, h2]

/-- An index of the array is in point `t`'s block iff each coordinate is in the block's range on its axis. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v37).slice (win2_3.rect t)).set ↔ _
  rw [View.set_slice_whole, Rect.mem_set_unit]
  exact Iff.rfl

/-- Row r lies in the block of point r / 5000: the ten blocks tile the array. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, ⟨e30, e31⟩⟩ := index_facts t
  refine ⟨t, flush2_3 t, ?_⟩
  rw [mem_blk]
  intro a
  have ht : t.val = (i 0).val / 5000 := rfl
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the call: `rescale a h n` of the arrays as the call finds them. -/
theorem final (c : Dev nD) :
    (dat2 (F := Ideal) V c).arrAt 3 cfg2.N = Cert.Gcn.rescale (N := 50000) (M := 64) (V c main_v36) (V c main_v25) (V c main_v11) :=
  (dat2 (F := Ideal) V c).arrAt_eq_of_cover 3 _ (fun t _ => flushed_eq V c t) cover

end Cert.KernelIdeal.Region2

end
-- ==== Proof.Region3.lean ====
/-
  The last call: what its output array holds once every grid point has written its block back.

  The call walks ten blocks of 5000 rows. At a point it loads the block of the aggregated neighbours `a`, the same block
  of the previous layer's features `h` and the same 5000 entries of the column of normalisers `n`, and stores
  `n ⊙ (a + h)`: entry (p, q) of the block depends only on row p of the three blocks. So each block written back is the
  block of ONE whole-array function, `Gcn.combine a h n`, the ten blocks tile the array, and the array ends as that function.
-/
import proofs.«159737_j22368189678004_2_alg».proof.Proof.Gen.KernelIdeal.Frame
import proofs.«159737_j22368189678004_2_alg».proof.Proof.LibGcnLayer

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

/-- An extended real, named as one: the arrays' entries are extended reals whatever float format their buffer has. -/
abbrev er (x : EReal) : EReal := x

theorem off_zero : (![0, 0] : Fin 2 → Nat) = fun _ => 0 := funext fun a => by fin_cases a <;> rfl

/-- The stored value at row p, column q of a block: `n p · (a (p,q) + h (p,q))` of the three loaded blocks. -/
theorem stored_apply (h : Vec Ideal S5000x64 .bf16) (n : Vec Ideal S5000x1 .f32) (a : Vec Ideal S5000x64 .f32)
    (y : S5000x64.Idx) :
    k3_pay1 (F := Ideal) h n a y
      = (n (ix2 (n0 := 5000) (y 0) (0 : Fin 1)) : EReal) * ((a y : EReal) + (h y : EReal)) := by
  obtain ⟨p, q, rfl⟩ : ∃ (p : Fin 5000) (q : Fin 64), y = ix2 p q := ⟨y 0, y 1, eq_ix2 y⟩
  unfold k3_pay1
  rw [shapeCast_self, shapeCast_self, shapeCast_self]
  show FloatOps.mulf (F := Ideal) (broadcastTo S5000x64 n broadcasts_S5000x1_S5000x64 (ix2 p q))
      (FloatOps.addf (F := Ideal) (a (ix2 p q)) (FloatOps.extf (F := Ideal) .f32 bitsLt_bf16_f32 (h (ix2 p q)))) = _
  rw [Cert.LibColumns.broadcastTo_a1_ab_apply n broadcasts_S5000x1_S5000x64 p q]
  rfl

/-- Every window of this call moves with the grid point along the rows and stays at column block 0. -/
theorem index_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0) :=
  (by decide +kernel : ∀ t : Fin grid3.N, _)

variable (V : (c : Dev nD) → (b : Ref sig .tc) → Buf (Elt Ideal) ((c : Thread nD τ).loc b))

/-- What point `t` writes back is block `t` of `combine a h n` of the arrays as the call finds them. -/
theorem flushed_eq (c : Dev nD) (t : Fin cfg3.N) :
    (dat3 (F := Ideal) V c).flushed 3 t
      = ((cfg3.win 3).blk t).view.read (Elt Ideal) (Cert.Gcn.combine (N := 50000) (M := 64) (V c main_v48) (V c main_v37) (V c main_v11)) := by
  show (cfg3.win 3).cut (grid3.coords t) ((dat3 (F := Ideal) V c).after 3 t) = _
  rw [after3_3]
  unfold out3_3
  rw [View.canon_unit_zero off_zero]
  simp only [View.ld_unit_zero (S := S5000x64) off_zero, View.ld_unit_zero (S := S5000x1) off_zero]
  obtain ⟨⟨e00, e01⟩, ⟨e10, e11⟩, ⟨e20, e21⟩, ⟨e30, e31⟩⟩ := index_facts t
  funext j
  refine (stored_apply _ _ _ j).trans ?_
  show er (V c main_v11 (((cfg3.win 2).blk t).view.emb (ix2 (n0 := 5000) (j 0) (0 : Fin 1))))
        * (er (V c main_v48 (((cfg3.win 0).blk t).view.emb j)) + er (V c main_v37 (((cfg3.win 1).blk t).view.emb j)))
      = er (V c main_v11 (ix2 (n0 := 50000) ((((cfg3.win 3).blk t).view.emb j) 0) (0 : Fin 1)))
        * (er (V c main_v48 (((cfg3.win 3).blk t).view.emb j)) + er (V c main_v37 (((cfg3.win 3).blk t).view.emb j)))
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 64 + 1 * (j 1).val = win3_3.index t (1 : Fin 2) * 64 + 1 * (j 1).val; omega
  have h2 : ((cfg3.win 2).blk t).view.emb (ix2 (n0 := 5000) (j 0) (0 : Fin 1))
      = ix2 (n0 := 50000) ((((cfg3.win 3).blk t).view.emb j) 0) (0 : Fin 1) := by
    funext a; apply Fin.ext
    match a with
    | ⟨0, _⟩ => show win3_2.index t (0 : Fin 2) * 5000 + 1 * (j 0).val = win3_3.index t (0 : Fin 2) * 5000 + 1 * (j 0).val; omega
    | ⟨1, _⟩ => show win3_2.index t (1 : Fin 2) * 1 + 1 * 0 = 0; omega
  rw [h0, h1, h2]

/-- An index of the array is in point `t`'s block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v49).slice (win3_3.rect t)).set ↔ _
  rw [View.set_slice_whole, Rect.mem_set_unit]
  exact Iff.rfl

/-- Row r lies in the block of point r / 5000: the ten blocks tile the array. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨-, -, -, ⟨e30, e31⟩⟩ := index_facts t
  refine ⟨t, flush3_3 t, ?_⟩
  rw [mem_blk]
  intro a
  have ht : t.val = (i 0).val / 5000 := rfl
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the call: `combine a h n` of the arrays as the call finds them. -/
theorem final (c : Dev nD) :
    (dat3 (F := Ideal) V c).arrAt 3 cfg3.N = Cert.Gcn.combine (N := 50000) (M := 64) (V c main_v48) (V c main_v37) (V c main_v11) :=
  (dat3 (F := Ideal) V c).arrAt_eq_of_cover 3 _ (fun t _ => flushed_eq V c t) cover

end Cert.KernelIdeal.Region3

end
-- ==== Proof.Chain.lean ====
/-
  The kernel program's result, read through its eight boundaries, is the reference's.

  The program alternates stretches of host operations with four calls. The first stretch computes, from the edge list
  `e`, the two index vectors of the edges and the column `n` of degree normalisers — by the very operations the reference
  applies — and no later stretch or call changes them. The first call leaves `n ⊙ (x·w + b)`, the reference's scaled
  embedding. Each later stretch gathers the previous call's output along the edges and sums it into the nodes
  (`neighbourSum`), again by the reference's operations; the second and third calls leave `(n·n) ⊙ (a + h)`, which is the
  reference's `n ⊙ (n ⊙ (a + h))` — the layer's output times the next layer's scaling — because multiplication of extended
  reals is associative; the last call leaves `n ⊙ (a + h)`, the reference's result. The gather and the scatter-add
  themselves are never opened: both programs apply the same ones to arrays shown equal.
-/
import proofs.«159737_j22368189678004_2_alg».proof.Proof.Gen.KernelIdeal.Frame
import proofs.«159737_j22368189678004_2_alg».proof.Proof.Gen.ReferenceIdeal.Read
import proofs.«159737_j22368189678004_2_alg».proof.Proof.LibGcnLayer
import proofs.«159737_j22368189678004_2_alg».proof.Proof.Region0
import proofs.«159737_j22368189678004_2_alg».proof.Proof.Region1
import proofs.«159737_j22368189678004_2_alg».proof.Proof.Region2
import proofs.«159737_j22368189678004_2_alg».proof.Proof.Region3

noncomputable section

namespace Cert.KernelIdeal.Chain

open Cert.KernelIdeal Cert.KernelIdeal.Gen Idealize.ShloMosaic Idealize.ShloMosaic.TcCoe Idealize.SL.Sem
open Idealize.ShloMosaic.StableHlo Cert.ReferenceIdeal.Read
open Idealize.ShloMosaic.Pipeline (Dat)

/-- The rows of `h` gathered along the edges' source nodes and summed into their target nodes, as the reference
    writes it (its zero array, its two index columns, its gather and its scatter-add). -/
def neighbourSum (e : (⟨Cert.ReferenceIdeal.S2x800000, .i32⟩ : BufTy).Contents (Elt Ideal))
    (h : FVec Ideal Cert.ReferenceIdeal.S50000x64 .f32) : FVec Ideal Cert.ReferenceIdeal.S50000x64 .f32 :=
  Host.scatterAdd (F := Ideal) (φ := .f32) Cert.ReferenceIdeal.scatter_S50000x64_S800000x1_S800000x64_1_0_0_1
    (val_main_v25 (F := Ideal)) (val_main_v26 (F := Ideal) e)
    (Host.gather Cert.ReferenceIdeal.gather_S50000x64_S800000x1_S800000x64_1_0_n_n_0_1_164 h (val_main_v23 (F := Ideal) e))

variable (m : (ℓ : Loc nD τ sig) → Buf (Elt Ideal) ℓ) (ρ : Dev nD → PrngReg) (c : Dev nD)

/-- What a boundary's contents keep of the first stretch: the edges' target and source index vectors and the
    column of normalisers, each the reference's stage of the edge list. -/
def Keeps (W : Valuation τ sig (Elt Ideal)) : Prop :=
  W (Proc.devRef .tc main_v1) = val_main_v1 (F := Ideal) (m ((c : Thread nD τ).loc main_arg1))
  ∧ W (Proc.devRef .tc main_v3) = val_main_v3 (F := Ideal) (m ((c : Thread nD τ).loc main_arg1))
  ∧ W (Proc.devRef .tc main_v11) = val_main_v11 (F := Ideal) (m ((c : Thread nD τ).loc main_arg1))

theorem keeps1 : Keeps m c (W1 m ρ c) := by
  refine ⟨?_, ?_, ?_⟩
  · show StableHlo.after hostOps0 (W0 m ρ c) (Proc.devRef .tc main_v1) = _
    after_results <;> rfl
  · show StableHlo.after hostOps0 (W0 m ρ c) (Proc.devRef .tc main_v3) = _
    after_results <;> rfl
  · show StableHlo.after hostOps0 (W0 m ρ c) (Proc.devRef .tc main_v11) = _
    after_results <;> rfl

theorem keeps2 : Keeps m c (W2 m ρ c) := by
  obtain ⟨h1, h3, h11⟩ := keeps1 m ρ c
  exact ⟨(W2_of_ne m ρ c main_v1 (by decide)).trans h1, (W2_of_ne m ρ c main_v3 (by decide)).trans h3,
    (W2_arr m ρ c 3).trans (((dat0 (V1 m ρ) c).arrAt_in 3 rfl _).trans ((A_eq0 (V1 m ρ) c 3).trans h11))⟩

theorem keeps3 : Keeps m c (W3 m ρ c) := by
  obtain ⟨h1, h3, h11⟩ := keeps2 m ρ c
  refine ⟨Eq.trans ?_ h1, Eq.trans ?_ h3, Eq.trans ?_ h11⟩
  · show StableHlo.after hostOps1 (W2 m ρ c) (Proc.devRef .tc main_v1) = W2 m ρ c (Proc.devRef .tc main_v1)
    after_results <;> rfl
  · show StableHlo.after hostOps1 (W2 m ρ c) (Proc.devRef .tc main_v3) = W2 m ρ c (Proc.devRef .tc main_v3)
    after_results <;> rfl
  · show StableHlo.after hostOps1 (W2 m ρ c) (Proc.devRef .tc main_v11) = W2 m ρ c (Proc.devRef .tc main_v11)
    after_results <;> rfl

theorem keeps4 : Keeps m c (W4 m ρ c) := by
  obtain ⟨h1, h3, h11⟩ := keeps3 m ρ c
  exact ⟨(W4_of_ne m ρ c main_v1 (by decide)).trans h1, (W4_of_ne m ρ c main_v3 (by decide)).trans h3,
    (W4_arr m ρ c 2).trans (((dat1 (V3 m ρ) c).arrAt_in 2 rfl _).trans ((A_eq1 (V3 m ρ) c 2).trans h11))⟩

theorem keeps5 : Keeps m c (W5 m ρ c) := by
  obtain ⟨h1, h3, h11⟩ := keeps4 m ρ c
  refine ⟨Eq.trans ?_ h1, Eq.trans ?_ h3, Eq.trans ?_ h11⟩
  · show StableHlo.after hostOps2 (W4 m ρ c) (Proc.devRef .tc main_v1) = W4 m ρ c (Proc.devRef .tc main_v1)
    after_results <;> rfl
  · show StableHlo.after hostOps2 (W4 m ρ c) (Proc.devRef .tc main_v3) = W4 m ρ c (Proc.devRef .tc main_v3)
    after_results <;> rfl
  · show StableHlo.after hostOps2 (W4 m ρ c) (Proc.devRef .tc main_v11) = W4 m ρ c (Proc.devRef .tc main_v11)
    after_results <;> rfl

theorem keeps6 : Keeps m c (W6 m ρ c) := by
  obtain ⟨h1, h3, h11⟩ := keeps5 m ρ c
  exact ⟨(W6_of_ne m ρ c main_v1 (by decide)).trans h1, (W6_of_ne m ρ c main_v3 (by decide)).trans h3,
    (W6_arr m ρ c 2).trans (((dat2 (V5 m ρ) c).arrAt_in 2 rfl _).trans ((A_eq2 (V5 m ρ) c 2).trans h11))⟩

theorem keeps7 : Keeps m c (W7 m ρ c) := by
  obtain ⟨h1, h3, h11⟩ := keeps6 m ρ c
  refine ⟨Eq.trans ?_ h1, Eq.trans ?_ h3, Eq.trans ?_ h11⟩
  · show StableHlo.after hostOps3 (W6 m ρ c) (Proc.devRef .tc main_v1) = W6 m ρ c (Proc.devRef .tc main_v1)
    after_results <;> rfl
  · show StableHlo.after hostOps3 (W6 m ρ c) (Proc.devRef .tc main_v3) = W6 m ρ c (Proc.devRef .tc main_v3)
    after_results <;> rfl
  · show StableHlo.after hostOps3 (W6 m ρ c) (Proc.devRef .tc main_v11) = W6 m ρ c (Proc.devRef .tc main_v11)
    after_results <;> rfl

/-! ## The four arguments as launched -/

abbrev ax : Buf (Elt Ideal) ((c : Thread nD τ).loc main_arg0) := m ((c : Thread nD τ).loc main_arg0)
abbrev ae : Buf (Elt Ideal) ((c : Thread nD τ).loc main_arg1) := m ((c : Thread nD τ).loc main_arg1)
abbrev aw : Buf (Elt Ideal) ((c : Thread nD τ).loc main_arg2) := m ((c : Thread nD τ).loc main_arg2)
abbrev ab : Buf (Elt Ideal) ((c : Thread nD τ).loc main_arg3) := m ((c : Thread nD τ).loc main_arg3)

/-! ## The first call leaves the reference's scaled embedding -/

theorem out0 : W2 m ρ c (Proc.devRef .tc main_v13) = val_main_v17 (F := Ideal) (ax m c) (ae m c) (aw m c) (ab m c) := by
  have hx : V1 m ρ c main_arg0 = ax m c := by
    show StableHlo.after hostOps0 (W0 m ρ c) (Proc.devRef .tc main_arg0) = _
    after_results <;> rfl
  have hw : V1 m ρ c main_arg2 = aw m c := by
    show StableHlo.after hostOps0 (W0 m ρ c) (Proc.devRef .tc main_arg2) = _
    after_results <;> rfl
  have hb : V1 m ρ c main_v12 = shapeCast S1x64 (ab m c) shapeCasts_S64_S1x64 := by
    show StableHlo.after hostOps0 (W0 m ρ c) (Proc.devRef .tc main_v12) = _
    after_results <;> rfl
  have hn : V1 m ρ c main_v11 = val_main_v11 (F := Ideal) (ae m c) := (keeps1 m ρ c).2.2
  refine (W2_arr m ρ c 4).trans ((Region0.final (V1 m ρ) c).trans ?_)
  rw [hx, hw, hb, hn]
  refine (Cert.Gcn.embed_eq_host Cert.ReferenceIdeal.dot_S50000x128_S128x64_S50000x64_1_0_0_1_n_n rfl rfl
    lhs_main_v12_0 lhs_main_v12_1 rhs_main_v12_0 rhs_main_v12_1
    Cert.ReferenceIdeal.Facts₀.bcast_S50000x1_S50000x64_0_1 Cert.ReferenceIdeal.Facts₀.bcast_S1x64_S50000x64_0_1 _ _ _ _).trans ?_
  rw [Cert.Gcn.row_recast_eq_spread shapeCasts_S64_S1x64 Cert.ReferenceIdeal.Facts₀.bcast_S64_S1x64_1 (ab m c)]
  rfl

/-! ## Each later stretch sums the previous call's output over the neighbours and keeps it -/

theorem sum1 : W3 m ρ c (Proc.devRef .tc main_v24) = neighbourSum (ae m c) (W2 m ρ c (Proc.devRef .tc main_v13)) := by
  obtain ⟨h1, h3, -⟩ := keeps2 m ρ c
  show StableHlo.after hostOps1 (W2 m ρ c) (Proc.devRef .tc main_v24) = _
  after_results
  rw [h1, h3]
  generalize W2 m ρ c (Proc.devRef .tc main_v13) = h
  rfl

theorem pass1 : W3 m ρ c (Proc.devRef .tc main_v13) = W2 m ρ c (Proc.devRef .tc main_v13) := by
  show StableHlo.after hostOps1 (W2 m ρ c) (Proc.devRef .tc main_v13) = _
  after_results <;> rfl

theorem sum2 : W5 m ρ c (Proc.devRef .tc main_v36) = neighbourSum (ae m c) (W4 m ρ c (Proc.devRef .tc main_v25)) := by
  obtain ⟨h1, h3, -⟩ := keeps4 m ρ c
  show StableHlo.after hostOps2 (W4 m ρ c) (Proc.devRef .tc main_v36) = _
  after_results
  rw [h1, h3]
  generalize W4 m ρ c (Proc.devRef .tc main_v25) = h
  rfl

theorem pass2 : W5 m ρ c (Proc.devRef .tc main_v25) = W4 m ρ c (Proc.devRef .tc main_v25) := by
  show StableHlo.after hostOps2 (W4 m ρ c) (Proc.devRef .tc main_v25) = _
  after_results <;> rfl

theorem sum3 : W7 m ρ c (Proc.devRef .tc main_v48) = neighbourSum (ae m c) (W6 m ρ c (Proc.devRef .tc main_v37)) := by
  obtain ⟨h1, h3, -⟩ := keeps6 m ρ c
  show StableHlo.after hostOps3 (W6 m ρ c) (Proc.devRef .tc main_v48) = _
  after_results
  rw [h1, h3]
  generalize W6 m ρ c (Proc.devRef .tc main_v37) = h
  rfl

theorem pass3 : W7 m ρ c (Proc.devRef .tc main_v37) = W6 m ρ c (Proc.devRef .tc main_v37) := by
  show StableHlo.after hostOps3 (W6 m ρ c) (Proc.devRef .tc main_v37) = _
  after_results <;> rfl

/-! ## The later calls leave the reference's layers -/

theorem out1 : W4 m ρ c (Proc.devRef .tc main_v25) = val_main_v32 (F := Ideal) (ax m c) (ae m c) (aw m c) (ab m c) := by
  have ha : V3 m ρ c main_v24 = neighbourSum (ae m c) (val_main_v17 (F := Ideal) (ax m c) (ae m c) (aw m c) (ab m c)) :=
    (sum1 m ρ c).trans (congrArg (neighbourSum (ae m c)) (out0 m ρ c))
  have hh : V3 m ρ c main_v13 = val_main_v17 (F := Ideal) (ax m c) (ae m c) (aw m c) (ab m c) := (pass1 m ρ c).trans (out0 m ρ c)
  have hn : V3 m ρ c main_v11 = val_main_v11 (F := Ideal) (ae m c) := (keeps3 m ρ c).2.2
  refine (W4_arr m ρ c 3).trans ((Region1.final (V3 m ρ) c).trans ?_)
  rw [ha, hh, hn]
  exact (Cert.Gcn.rescale_eq_host Cert.ReferenceIdeal.Facts₀.bcast_S50000x1_S50000x64_0_1 _ _ _).trans rfl

theorem out2 : W6 m ρ c (Proc.devRef .tc main_v37) = val_main_v47 (F := Ideal) (ax m c) (ae m c) (aw m c) (ab m c) := by
  have ha : V5 m ρ c main_v36 = neighbourSum (ae m c) (val_main_v32 (F := Ideal) (ax m c) (ae m c) (aw m c) (ab m c)) :=
    (sum2 m ρ c).trans (congrArg (neighbourSum (ae m c)) (out1 m ρ c))
  have hh : V5 m ρ c main_v25 = val_main_v32 (F := Ideal) (ax m c) (ae m c) (aw m c) (ab m c) := (pass2 m ρ c).trans (out1 m ρ c)
  have hn : V5 m ρ c main_v11 = val_main_v11 (F := Ideal) (ae m c) := (keeps5 m ρ c).2.2
  refine (W6_arr m ρ c 3).trans ((Region2.final (V5 m ρ) c).trans ?_)
  rw [ha, hh, hn]
  exact (Cert.Gcn.rescale_eq_host Cert.ReferenceIdeal.Facts₀.bcast_S50000x1_S50000x64_0_1 _ _ _).trans rfl

/-- The kernel program's result buffer, at the last boundary, holds the reference's result. -/
theorem out3 : W8 m ρ c (Proc.devRef .tc main_v49) = val_main_v60 (F := Ideal) (ax m c) (ae m c) (aw m c) (ab m c) := by
  have ha : V7 m ρ c main_v48 = neighbourSum (ae m c) (val_main_v47 (F := Ideal) (ax m c) (ae m c) (aw m c) (ab m c)) :=
    (sum3 m ρ c).trans (congrArg (neighbourSum (ae m c)) (out2 m ρ c))
  have hh : V7 m ρ c main_v37 = val_main_v47 (F := Ideal) (ax m c) (ae m c) (aw m c) (ab m c) := (pass3 m ρ c).trans (out2 m ρ c)
  have hn : V7 m ρ c main_v11 = val_main_v11 (F := Ideal) (ae m c) := (keeps7 m ρ c).2.2
  refine (W8_arr m ρ c 3).trans ((Region3.final (V7 m ρ) c).trans ?_)
  rw [ha, hh, hn]
  exact (Cert.Gcn.combine_eq_host Cert.ReferenceIdeal.Facts₀.bcast_S50000x1_S50000x64_0_1 _ _ _).trans rfl

end Cert.KernelIdeal.Chain

end
-- ==== Proof.lean ====
/-
  A three-layer graph convolution computed by four tiled calls, against its plain reference, over the extended reals.

  Both programs compute, from node features `x`, an edge list `e`, weights `w` and a bias `b`: the column of
  normalisers `n = rsqrt (1 + degree)`, the embedding `h₀ = x·w + b`, and three times `h ← n ⊙ (S (n ⊙ h) + n ⊙ h)`,
  where `S` gathers rows along the edges' sources and sums them into the edges' targets. The reference does this with
  whole-array operations. The kernel program keeps the scaled features `n ⊙ h` between layers: its first call leaves
  `n ⊙ (x·w + b)` block by block, its second and third `(n·n) ⊙ (a + h)`, its last `n ⊙ (a + h)`, with the host gathering
  and summing in between exactly as the reference does. Read as extended reals the two results agree: changes of float
  format are the identity, a product into a zero accumulator is the plain sum of products, the ten row blocks tile each
  array, and `(n·n)·y = n·(n·y)` by associativity — which holds at the infinities too, so the finiteness of the inputs is
  never used. The frames of the two kernel programs are the generated ones; the reference's is its generated run.
-/
import proofs.«159737_j22368189678004_2_alg».proof.Defs
import proofs.«159737_j22368189678004_2_alg».proof.Proof.Gen.Kernel
import proofs.«159737_j22368189678004_2_alg».proof.Proof.Gen.Kernel.Skeleton
import proofs.«159737_j22368189678004_2_alg».proof.Proof.Gen.Kernel.Launch
import proofs.«159737_j22368189678004_2_alg».proof.Proof.Gen.Kernel.Points
import proofs.«159737_j22368189678004_2_alg».proof.Proof.Gen.Kernel.Frame
import proofs.«159737_j22368189678004_2_alg».proof.Proof.Gen.KernelIdeal
import proofs.«159737_j22368189678004_2_alg».proof.Proof.Gen.KernelIdeal.Skeleton
import proofs.«159737_j22368189678004_2_alg».proof.Proof.Gen.KernelIdeal.Launch
import proofs.«159737_j22368189678004_2_alg».proof.Proof.Gen.KernelIdeal.Points
import proofs.«159737_j22368189678004_2_alg».proof.Proof.Gen.KernelIdeal.Frame
import proofs.«159737_j22368189678004_2_alg».proof.Proof.Gen.ReferenceIdeal
import proofs.«159737_j22368189678004_2_alg».proof.Proof.Gen.Pre_finite_inputs
import proofs.«159737_j22368189678004_2_alg».proof.Proof.Gen.ReferenceIdeal.Run
import proofs.«159737_j22368189678004_2_alg».proof.Proof.Gen.ReferenceIdeal.Read
import proofs.«159737_j22368189678004_2_alg».proof.Proof.RunNamed
import proofs.«159737_j22368189678004_2_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same result array: the kernel program's, named by its last boundary, is the reference's
    last stage of the same arguments. -/
theorem algebraic : Cert.algebraic_KernelIdeal_ReferenceIdeal := by
  intro m ρ m' ρ' _ hagree
  refine ⟨fun c => Cert.KernelIdeal.Gen.W8 m ρ c (Proc.devRef .tc Cert.KernelIdeal.main_v49),
    Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1, (hagree c).2.2.2]
  exact (Cert.KernelIdeal.Chain.out3 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
